-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S32x4096x256 : Shape := ⟨3, ![32, 4096, 256]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S32x4096x256 : S_.BroadcastsInDim S32x4096x256 (![] : Fin 0 → Fin S32x4096x256.rank)
  reducesTo_S32x4096x256_S_d0_1_2 : S32x4096x256.ReducesTo [0, 1, 2] S_

variable [Facts]

def fn {F : FTy → Type} [FloatOps F] (main_arg0 : FVec F S32x4096 .f32) (main_arg1 : FVec F S32x4096x256 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S32x4096x256 .f32 := Host.absf main_arg1
  let main_cst_0 : FVec F S_ .f32 := constant S_ .f32 0x7F800000#32
  let main_v5 : FVec F S32x4096x256 .f32 := broadcastInDim S32x4096x256 ![] bcast_S_S32x4096x256 main_cst_0
  let main_v6 : IVec S32x4096x256 1 := cmpf .olt main_v4 main_v5
  let main_c_1 : IVec S_ 1 := constantI S_ 1 1#1
  let main_v7 : IVec S_ 1 := (fun x v => Host.reduce IntOp.andi x v reducesTo_S32x4096x256_S_d0_1_2 h_S_) main_v6 main_c_1
  let main_v8 : IVec S_ 1 := andi main_v3 main_v7
  main_v8
-- ==== Kernel.lean ====
abbrev S32x4096 : Shape := ⟨2, ![32, 4096]⟩
abbrev S32x4096x256 : Shape := ⟨3, ![32, 4096, 256]⟩
abbrev S16x256 : Shape := ⟨2, ![16, 256]⟩
abbrev S16x256x256 : Shape := ⟨3, ![16, 256, 256]⟩
abbrev S16x256x1 : Shape := ⟨3, ![16, 256, 1]⟩

abbrev nBuf : Space → Nat
  | .hbm => 3
  | .vmem => 6
  | .smem => 0
  | _ => 0

abbrev bufTy : (tb : Table) → Fin (tcTables nBuf tb) → BufTy
  | .hbm, ⟨0, _⟩ => ⟨S32x4096, .f32⟩
  | .hbm, ⟨1, _⟩ => ⟨S32x4096x256, .f32⟩
  | .hbm, ⟨2, _⟩ => ⟨S32x4096x256, .f32⟩
  | .local _ .vmem, ⟨0, _⟩ => ⟨S16x256, .f32⟩
  | .local _ .vmem, ⟨1, _⟩ => ⟨S16x256, .f32⟩
  | .local _ .vmem, ⟨2, _⟩ => ⟨S16x256x256, .f32⟩
  | .local _ .vmem, ⟨3, _⟩ => ⟨S16x256x256, .f32⟩
  | .local _ .vmem, ⟨4, _⟩ => ⟨S16x256x256, .f32⟩
  | .local _ .vmem, ⟨5, _⟩ => ⟨S16x256x256, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S16x256_S16x256_0_0 : ∀ a, (![0, 0] : Fin 2 → Nat) a + S16x256.size a ≤ S16x256.size a
  h_S16x256 : 0 < S16x256.numel
  shapeCasts_S16x256_S16x256x1 : S16x256.ShapeCasts S16x256x1
  inb_S16x256x256_S16x256x256_0_0_0 : ∀ a, (![0, 0, 0] : Fin 3 → Nat) a + S16x256x256.size a ≤ S16x256x256.size a
  h_S16x256x256 : 0 < S16x256x256.numel
  broadcasts_S16x256x1_S16x256x256 : S16x256x1.Broadcasts S16x256x256
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S32x4096.size a
  hwx0_0 : ∀ i : grid0.Coords, EltTy.bits .f32 = 32 ∨ (Rect.block (s := S32x4096) S16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S32x4096x256.size a
  hwx0_1 : ∀ i : grid0.Coords, EltTy.bits .f32 = 32 ∨ (Rect.block (s := S32x4096x256) S16x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256x256.size a ≤ S32x4096x256.size a
  hwx0_2 : ∀ i : grid0.Coords, EltTy.bits .f32 = 32 ∨ (Rect.block (s := S32x4096x256) S16x256x256.size (cc0_transform_2 i) (hinb0_2 i)).WholeWords (EltTy.packing .f32)

variable [Facts₀]

abbrev win0_0 : Pipeline.Window sig grid0 :=
  Pipeline.Window.ofSpec (Memref.whole main_arg0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096 : Shape := ⟨2, ![32, 4096]⟩
abbrev S32x4096x256 : Shape := ⟨3, ![32, 4096, 256]⟩
abbrev S_ : Shape := ⟨0, ![]⟩
abbrev S32x4096x1 : Shape := ⟨3, ![32, 4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S32x4096x256, .f32⟩
  | .hbm, ⟨2, _⟩ => ⟨S_, .f32⟩
  | .hbm, ⟨3, _⟩ => ⟨S32x4096x256, .f32⟩
  | .hbm, ⟨4, _⟩ => ⟨S32x4096x256, .f32⟩
  | .hbm, ⟨5, _⟩ => ⟨S32x4096x1, .f32⟩
  | .hbm, ⟨6, _⟩ => ⟨S32x4096x256, .f32⟩
  | .hbm, ⟨7, _⟩ => ⟨S32x4096x256, .f32⟩
  | .hbm, ⟨8, _⟩ => ⟨S_, .f32⟩
  | .hbm, ⟨9, _⟩ => ⟨S32x4096x256, .f32⟩
  | .hbm, ⟨10, _⟩ => ⟨S32x4096x256, .i1⟩
  | .hbm, ⟨11, _⟩ => ⟨S32x4096x256, .f32⟩
  | .hbm, ⟨12, _⟩ => ⟨S_, .f32⟩
  | .hbm, ⟨13, _⟩ => ⟨S32x4096x256, .f32⟩
  | .hbm, ⟨14, _⟩ => ⟨S32x4096x256, .f32⟩
  | .hbm, ⟨15, _⟩ => ⟨S32x4096x256, .f32⟩
  | .hbm, ⟨16, _⟩ => ⟨S_, .f32⟩
  | .hbm, ⟨17, _⟩ => ⟨S32x4096x256, .f32⟩
  | .hbm, ⟨18, _⟩ => ⟨S32x4096x256, .i1⟩
  | .hbm, ⟨19, _⟩ => ⟨S32x4096x256, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S32x4096x256 : S_.BroadcastsInDim S32x4096x256 (![] : Fin 0 → Fin S32x4096x256.rank)
  bcast_S32x4096_S32x4096x1_0_1 : S32x4096.BroadcastsInDim S32x4096x1 (![0, 1] : Fin 2 → Fin S32x4096x1.rank)
  bcast_S32x4096x1_S32x4096x256_0_1_2 : S32x4096x1.BroadcastsInDim S32x4096x256 (![0, 1, 2] : Fin 3 → Fin S32x4096x256.rank)

variable [Facts₀]

class Facts : Prop extends Facts₀ where

variable [Facts]
-- ==== Proof.LifStep.lean ====
/-
  One step of a leaky integrate-and-fire neuron with reset, read on the extended reals.

  A neuron with membrane voltage `v`, driven by the input `s`, is charged to `u = v · ½ + s` (the decay is one half).
  It fires when `u` exceeds the threshold (again one half); a neuron that fired is reset to zero, `u · (1 − fired u)`,
  and what is emitted is whether the voltage AFTER the reset still exceeds the threshold: `fired (u · (1 − fired u))`,
  a number that is zero or one. Over arrays the drive has one entry per (batch, feature) and is shared by the 256
  neurons of that feature, so the emitted array at (b, f, n) is the step of the drive at (b, f) and the voltage at
  (b, f, n).

  The only fact about numbers used anywhere in this certificate is `sitofp_widened_bit`: a comparison's one-bit
  answer, widened with zeros to 32 bits and then read as a SIGNED integer, is the same real number (0 or 1) as the bit read
  as an UNSIGNED integer. No law of addition or multiplication is needed: both programs apply the same operations in the
  same order, so nothing here depends on the inputs being finite.
-/
import Idealize.ShloMosaic.PureOps.Ideal
import Idealize.ShloMosaic.Lib.ValueIdx

noncomputable section

namespace Cert.Lif

open Idealize.ShloMosaic Idealize.ShloMosaic.ValueIdx

/-- The drive's index set: one entry per (batch, feature). -/
abbrev SDrive : Shape := ⟨2, ![32, 4096]⟩
/-- The voltages' and the emitted spikes' index set: one entry per (batch, feature, neuron). -/
abbrev SCell : Shape := ⟨3, ![32, 4096, 256]⟩

/-- One half: the decay factor and the threshold. -/
abbrev half : Ideal .f32 := FloatOps.ofBits (F := Ideal) .f32 0x3F000000#32
/-- One. -/
abbrev unit : Ideal .f32 := FloatOps.ofBits (F := Ideal) .f32 0x3F800000#32

/-- The voltage after decay and drive: `v · ½ + s`. -/
def charged (s v : Ideal .f32) : Ideal .f32 :=
  FloatOps.addf (F := Ideal) (FloatOps.mulf (F := Ideal) v half) s

/-- Whether a voltage exceeds the threshold, as the number 0 or 1. -/
def fired (u : Ideal .f32) : Ideal .f32 :=
  FloatOps.uitofp (F := Ideal) .f32 (FloatOps.cmpf (F := Ideal) .ogt u half)

/-- One step: charge, reset if fired, and report whether the reset voltage still exceeds the threshold. -/
def step (s v : Ideal .f32) : Ideal .f32 :=
  fired (FloatOps.mulf (F := Ideal) (charged s v) (FloatOps.subf (F := Ideal) unit (fired (charged s v))))

/-- The (batch, feature) pair a cell belongs to. -/
def rowOf (i : SCell.Idx) : SDrive.Idx := ix2 (n0 := 32) (n1 := 4096) (i 0) (i 1)

/-- The emitted array: every cell takes one step from its own voltage and its row's drive. -/
def emitted (s : SDrive.Idx → Ideal .f32) (v : SCell.Idx → Ideal .f32) : SCell.Idx → Ideal .f32 :=
  fun i => step (s (rowOf i)) (v i)

/-- A single bit widened with zeros to 32 bits and read signed is the bit read unsigned: both are 0 or 1. -/
theorem sitofp_widened_bit (b : BitVec 1) :
    FloatOps.sitofp (F := Ideal) .f32 (b.setWidth 32) = FloatOps.uitofp (F := Ideal) .f32 b := by
  have hb : (b.setWidth 32).toInt = (b.toNat : Int) := by revert b; decide
  show (((b.setWidth 32).toInt : ℝ) : EReal) = ((b.toNat : ℝ) : EReal)
  rw [hb, Int.cast_natCast]

/-- The step written with the signed reading of the widened bit, as a vector unit computes it. -/
theorem step_signed (s v : Ideal .f32) :
    FloatOps.sitofp (F := Ideal) .f32 ((FloatOps.cmpf (F := Ideal) .ogt
      (FloatOps.mulf (F := Ideal) (FloatOps.addf (F := Ideal) (FloatOps.mulf (F := Ideal) v half) s)
        (FloatOps.subf (F := Ideal) unit
          (FloatOps.sitofp (F := Ideal) .f32 ((FloatOps.cmpf (F := Ideal) .ogt
            (FloatOps.addf (F := Ideal) (FloatOps.mulf (F := Ideal) v half) s) half).setWidth 32)))) half).setWidth 32)
    = step s v := by
  rw [sitofp_widened_bit, sitofp_widened_bit]
  rfl

end Cert.Lif

end
-- ==== Proof.RefValue.lean ====
/-
  The reference program's result is the emitted array of `LifStep`.

  Read one operation at a time, the reference's last buffer at a cell `i` is: the comparison against one half of
  `u · (1 − fired u)`, read unsigned, where `u` is the voltage at `i` times one half plus the drive broadcast along the
  neuron axis — and the drive broadcast first to [32, 4096, 1] and then to [32, 4096, 256] is, at `i`, the drive at the
  (batch, feature) pair of `i`. That is `Cert.Lif.step` of the row's drive and the cell's voltage, term for term.
-/
import proofs.«173633_j3100966388047_1_alg».proof.Proof.Gen.ReferenceIdeal.Read
import proofs.«173633_j3100966388047_1_alg».proof.Proof.LifStep

noncomputable section

namespace Cert.ReferenceIdeal.RefValue

open Cert.ReferenceIdeal Cert.ReferenceIdeal.Read Idealize.ShloMosaic Idealize.ShloMosaic.ValueIdx

/-- The two broadcasts of the drive, composed, read a cell's (batch, feature) pair. -/
theorem drive_index (i : S32x4096x256.Idx) : idx_main_v2 (idx_main_v3 i) = Cert.Lif.rowOf i :=
  funext fun a => by
    match a with
    | ⟨0, _⟩ => rfl
    | ⟨1, _⟩ => rfl

/-- The reference's result, as a function of its two arguments, is the emitted array. -/
theorem result_eq (x0 : (⟨S32x4096, .f32⟩ : BufTy).Contents (Elt Ideal)) (x1 : (⟨S32x4096x256, .f32⟩ : BufTy).Contents (Elt Ideal)) :
    val_main_v13 (F := Ideal) x0 x1 = Cert.Lif.emitted x0 x1 := by
  funext i
  rw [val_main_v13_apply, val_main_v12_apply, val_main_v11_apply, val_main_cst_2_apply, val_main_v10_apply,
    val_main_v9_apply, val_main_v8_apply, val_main_cst_1_apply, val_main_v7_apply, val_main_v6_apply,
    val_main_v5_apply, val_main_cst_0_apply, val_main_v4_apply, val_main_v3_apply, val_main_v2_apply,
    val_main_v1_apply, val_main_v0_apply, val_main_cst_apply, drive_index]
  rfl

end Cert.ReferenceIdeal.RefValue

end
-- ==== Proof.BlockStep.lean ====
/-
  What the kernel body computes from the two blocks it loads, entry by entry.

  The body loads a block of the drive, [16, 256], and a block of the voltages, [16, 256, 256]; it re-lays the drive as a
  column [16, 256, 1] and repeats it along the neuron axis; everything else is entry by entry. So the stored block at
  (a, b, n) is one step (`Cert.Lif.step`) of the drive block at (a, b) and the voltage block at (a, b, n) — with the
  comparison's bit widened to 32 bits and read signed, which is the same number (`Cert.Lif.step_signed`).
-/
import proofs.«173633_j3100966388047_1_alg».proof.Proof.Gen.KernelIdeal.Skeleton
import proofs.«173633_j3100966388047_1_alg».proof.Proof.LifStep
import Idealize.ShloMosaic.Lib.Pipeline.Value

noncomputable section

namespace Cert.KernelIdeal.BlockStep

open Cert.KernelIdeal Cert.KernelIdeal.Gen Idealize.ShloMosaic Idealize.ShloMosaic.ValueIdx

/-- A [16, 256] block re-laid as a column [16, 256, 1] and repeated along a last axis of 256, read at (a, b, n), is the
    block at (a, b): the column's row-major position is that of (a, b), and the repeated axis reads position 0. -/
theorem column_apply {α : Type} (p : S16x256.Idx → α) (h1 : S16x256.ShapeCasts S16x256x1) (h2 : S16x256x1.Broadcasts S16x256x256)
    (a : Fin 16) (b : Fin 256) (n : Fin 256) :
    broadcastTo S16x256x256 (shapeCast S16x256x1 p h1) h2 (ix3 a b n) = p (ix2 a b) := by
  refine (broadcastTo_apply (shapeCast S16x256x1 p h1) h2 (ix3 a b n) (ix3 a b (0 : Fin 1)) ?_).trans ?_
  · intro d
    match d with
    | ⟨0, _⟩ => show a.val = if (16 : Nat) = 1 then 0 else a.val; rw [if_neg (by decide)]
    | ⟨1, _⟩ => show b.val = if (256 : Nat) = 1 then 0 else b.val; rw [if_neg (by decide)]
    | ⟨2, _⟩ => show 0 = if (1 : Nat) = 1 then 0 else n.val; rw [if_pos rfl]
  · refine shapeCast_apply p h1 (ix3 a b (0 : Fin 1)) (ix2 a b) ?_
    rw [Shape.rowMajor_val_two, Shape.rowMajor_val_three]
    show a.val * 256 + b.val = (a.val * 256 + b.val) * 1 + 0
    omega

/-- The stored block at (a, b, n): one step of the drive block at (a, b) and the voltage block at (a, b, n). -/
theorem stored_apply (drive : Vec Ideal S16x256 .f32) (volt : Vec Ideal S16x256x256 .f32) (a : Fin 16) (b : Fin 256) (n : Fin 256) :
    k0_pay1 (F := Ideal) drive volt (ix3 a b n) = Cert.Lif.step (drive (ix2 a b)) (volt (ix3 a b n)) := by
  rw [← Cert.Lif.step_signed]
  unfold k0_pay1
  show FloatOps.sitofp (F := Ideal) .f32 ((FloatOps.cmpf (F := Ideal) .ogt
      (FloatOps.mulf (F := Ideal) (FloatOps.addf (F := Ideal) (FloatOps.mulf (F := Ideal) (volt (ix3 a b n)) Cert.Lif.half)
          (broadcastTo S16x256x256 (shapeCast S16x256x1 drive shapeCasts_S16x256_S16x256x1) broadcasts_S16x256x1_S16x256x256 (ix3 a b n)))
        (FloatOps.subf (F := Ideal) Cert.Lif.unit
          (FloatOps.sitofp (F := Ideal) .f32 ((FloatOps.cmpf (F := Ideal) .ogt
            (FloatOps.addf (F := Ideal) (FloatOps.mulf (F := Ideal) (volt (ix3 a b n)) Cert.Lif.half)
              (broadcastTo S16x256x256 (shapeCast S16x256x1 drive shapeCasts_S16x256_S16x256x1) broadcasts_S16x256x1_S16x256x256 (ix3 a b n)))
            Cert.Lif.half).setWidth 32)))) Cert.Lif.half).setWidth 32) = _
  rw [column_apply]

end Cert.KernelIdeal.BlockStep

end
-- ==== Proof.KernelValue.lean ====
/-
  From blocks to the array: after the kernel's run the result array is the emitted array of `LifStep`.

  The grid has 2 × 16 points; point `t` is (t / 16, t % 16). At that point the drive's window holds the [16, 256] block
  (t / 16, t % 16) of the drive, the voltages' window the [16, 256, 256] block (t / 16, t % 16, 0) of the voltages, and the
  result's window writes back block (t / 16, t % 16, 0) of the result: the three blocks sit over the same batch rows and
  feature columns. So what point `t` writes back, entry (a, b, n), is one step of the drive at (16·(t/16) + a,
  256·(t%16) + b) and the voltage at (…, …, n) — the emitted array read through the result's block (`written_eq`). Every
  cell (r, f, n) lies in the block of the point 16·(r / 16) + f / 256 (`covered`), so the whole result array is the emitted
  array (`result_array`), and the run leaves it there with both arguments as they were (`run`).
-/
import proofs.«173633_j3100966388047_1_alg».proof.Proof.Gen.KernelIdeal.Frame
import proofs.«173633_j3100966388047_1_alg».proof.Proof.BlockStep
import proofs.«173633_j3100966388047_1_alg».proof.Proof.LifStep
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- Where the three windows' blocks sit at point `t` of the 2 × 16 grid: batch block `t / 16`, feature block `t % 16`,
    and the one neuron block. Decided over the 32 points. -/
theorem block_at : ∀ t : Fin cfg0.N,
    win0_0.index t (0 : Fin 2) = t.val / 16 ∧ win0_0.index t (1 : Fin 2) = t.val % 16
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = t.val % 16 ∧ win0_2.index t (2 : Fin 3) = 0 :=
  (by decide +kernel : ∀ t : Fin grid0.N, _)

/-- What point `t` writes back is the emitted array read through the result's block at `t`. -/
theorem written_eq (c : Dev nD) (t : Fin cfg0.N) :
    (dats m 0 c).flushed 2 t
      = ((cfg0.win 2).blk t).view.read (Elt Ideal) (Cert.Lif.emitted (V m c main_arg0) (V m c main_arg1)) := by
  show (cfg0.win 2).cut (grid0.coords t) ((dats m 0 c).after 2 t) = _
  rw [after0_2]
  unfold out0_2
  rw [View.canon_unit_zero zero3]
  simp only [View.ld_unit_zero (S := S16x256) zero2, View.ld_unit_zero (S := S16x256x256) zero3]
  obtain ⟨d0, d1, v0, v1, v2, o0, o1, o2⟩ := block_at t
  funext j
  obtain ⟨a, b, n, rfl⟩ : ∃ (a : Fin 16) (b : Fin 256) (n : Fin 256), j = ix3 a b n := ⟨j 0, j 1, j 2, eq_ix3 j⟩
  refine (BlockStep.stored_apply (iblk m c 0 t) (iblk m c 1 t) a b n).trans ?_
  show Cert.Lif.step (V m c main_arg0 (((cfg0.win 0).blk t).view.emb (ix2 a b)))
        (V m c main_arg1 (((cfg0.win 1).blk t).view.emb (ix3 a b n)))
      = Cert.Lif.step (V m c main_arg0 (Cert.Lif.rowOf (((cfg0.win 2).blk t).view.emb (ix3 a b n))))
        (V m c main_arg1 (((cfg0.win 2).blk t).view.emb (ix3 a b n)))
  have hrow : ((cfg0.win 0).blk t).view.emb (ix2 a b) = Cert.Lif.rowOf (((cfg0.win 2).blk t).view.emb (ix3 a b n)) := by
    funext d; apply Fin.ext
    match d with
    | ⟨0, _⟩ => show win0_0.index t (0 : Fin 2) * 16 + 1 * a.val = win0_2.index t (0 : Fin 3) * 16 + 1 * a.val; omega
    | ⟨1, _⟩ => show win0_0.index t (1 : Fin 2) * 256 + 1 * b.val = win0_2.index t (1 : Fin 3) * 256 + 1 * b.val; omega
  have hcell : ((cfg0.win 1).blk t).view.emb (ix3 a b n) = ((cfg0.win 2).blk t).view.emb (ix3 a b n) := by
    funext d; apply Fin.ext
    match d with
    | ⟨0, _⟩ => show win0_1.index t (0 : Fin 3) * 16 + 1 * a.val = win0_2.index t (0 : Fin 3) * 16 + 1 * a.val; omega
    | ⟨1, _⟩ => show win0_1.index t (1 : Fin 3) * 256 + 1 * b.val = win0_2.index t (1 : Fin 3) * 256 + 1 * b.val; omega
    | ⟨2, _⟩ => show win0_1.index t (2 : Fin 3) * 256 + 1 * n.val = win0_2.index t (2 : Fin 3) * 256 + 1 * n.val; omega
  rw [hrow, hcell]

/-- A cell is in point `t`'s block of the result iff each coordinate is in the block's range on its axis. -/
theorem mem_block (t : Fin cfg0.N) (i : S32x4096x256.Idx) :
    i ∈ ((cfg0.win 2).blk t).view.set ↔ ∀ a : Fin 3, win0_2.index t a * S16x256x256.size a ≤ (i a).val
      ∧ (i a).val < win0_2.index t a * S16x256x256.size a + S16x256x256.size a := by
  show i ∈ ((View.whole main_v0).slice (win0_2.rect t)).set ↔ _
  rw [View.set_slice_whole, Rect.mem_set_unit]
  exact Iff.rfl

/-- Every cell (r, f, n) is written back by some point: the point 16 · (r / 16) + f / 256. -/
theorem covered (i : S32x4096x256.Idx) :
    ∃ t : Fin cfg0.N, (cfg0.win 2).flush t = true ∧ i ∈ ((cfg0.win 2).blk t).view.set := by
  have h0 : (i 0).val < 32 := (i 0).isLt
  have h1 : (i 1).val < 4096 := (i 1).isLt
  have h2 : (i 2).val < 256 := (i 2).isLt
  obtain ⟨t, ht⟩ : ∃ t : Fin cfg0.N, t.val = (i 0).val / 16 * 16 + (i 1).val / 256 :=
    ⟨⟨(i 0).val / 16 * 16 + (i 1).val / 256, by rw [show cfg0.N = 32 from N_0]; omega⟩, rfl⟩
  obtain ⟨_, _, _, _, _, o0, o1, o2⟩ := block_at t
  refine ⟨t, flush0_2 t, ?_⟩
  rw [mem_block]
  intro a
  match a with
  | ⟨0, _⟩ =>
    show win0_2.index t (0 : Fin 3) * 16 ≤ (i 0).val ∧ (i 0).val < win0_2.index t (0 : Fin 3) * 16 + 16
    omega
  | ⟨1, _⟩ =>
    show win0_2.index t (1 : Fin 3) * 256 ≤ (i 1).val ∧ (i 1).val < win0_2.index t (1 : Fin 3) * 256 + 256
    omega
  | ⟨2, _⟩ =>
    show win0_2.index t (2 : Fin 3) * 256 ≤ (i 2).val ∧ (i 2).val < win0_2.index t (2 : Fin 3) * 256 + 256
    omega

/-- The result array after the last point is the emitted array of the two arguments. -/
theorem result_array (c : Dev nD) :
    (dats m 0 c).arrAt 2 cfg0.N
      = Cert.Lif.emitted (m ((c : Thread nD τ).loc main_arg0)) (m ((c : Thread nD τ).loc main_arg1)) :=
  (dats m 0 c).arrAt_eq_of_cover 2 (Cert.Lif.emitted (V m c main_arg0) (V m c main_arg1))
    (fun t _ => written_eq m c t) covered

/-- The kernel's run: it ends with the result array at the emitted array and both arguments unchanged. -/
theorem run : θ_run defs (onTc (τ := τ) (main (F := Ideal))) ⟨m, fun _ => 0, ρ⟩ fun r => ∀ c : Dev nD,
      r.2.mem ((c : Thread nD τ).loc main_v0)
        = Cert.Lif.emitted (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (result_array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ArrayValue

end
-- ==== Proof.lean ====
/-
  The kernel and its reference both compute, for every (batch, feature, neuron) cell, one step of a leaky
  integrate-and-fire neuron with reset: charge the voltage to `u = v · ½ + s` with the drive `s` of the cell's
  (batch, feature) pair, reset it to zero if it exceeds one half, and emit whether the reset voltage still exceeds one half
  (Proof/LifStep.lean). The kernel does so block by block over a 2 × 16 grid, with the drive block repeated along the
  neuron axis inside the body (Proof/BlockStep.lean, Proof/KernelValue.lean); the reference does so on whole arrays, with
  the drive broadcast along the neuron axis (Proof/RefValue.lean). The two apply the same operations in the same order
  — the one difference being that the kernel widens the comparison's bit to 32 bits and reads it signed where the reference
  reads the bit unsigned, the same number — so the results are equal on all extended reals and the precondition is never
  opened. Read on the extended reals the kernel is its own text, no operation rewritten, so `preserves` asks nothing.
  The three frames are the generated frame certificates of the two kernel programs and the reference's generated run with
  its result dropped.
-/
import proofs.«173633_j3100966388047_1_alg».proof.Defs
import proofs.«173633_j3100966388047_1_alg».proof.Proof.Gen.Kernel
import proofs.«173633_j3100966388047_1_alg».proof.Proof.Gen.Kernel.Skeleton
import proofs.«173633_j3100966388047_1_alg».proof.Proof.Gen.Kernel.Launch
import proofs.«173633_j3100966388047_1_alg».proof.Proof.Gen.Kernel.Points
import proofs.«173633_j3100966388047_1_alg».proof.Proof.Gen.Kernel.Frame
import proofs.«173633_j3100966388047_1_alg».proof.Proof.Gen.KernelIdeal
import proofs.«173633_j3100966388047_1_alg».proof.Proof.Gen.KernelIdeal.Skeleton
import proofs.«173633_j3100966388047_1_alg».proof.Proof.Gen.KernelIdeal.Launch
import proofs.«173633_j3100966388047_1_alg».proof.Proof.Gen.KernelIdeal.Points
import proofs.«173633_j3100966388047_1_alg».proof.Proof.Gen.KernelIdeal.Frame
import proofs.«173633_j3100966388047_1_alg».proof.Proof.Gen.ReferenceIdeal
import proofs.«173633_j3100966388047_1_alg».proof.Proof.Gen.Pre_finite_inputs
import proofs.«173633_j3100966388047_1_alg».proof.Proof.Gen.ReferenceIdeal.Run
import proofs.«173633_j3100966388047_1_alg».proof.Proof.Gen.ReferenceIdeal.Read
import proofs.«173633_j3100966388047_1_alg».proof.Proof.LifStep
import proofs.«173633_j3100966388047_1_alg».proof.Proof.RefValue
import proofs.«173633_j3100966388047_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From arguments that agree, both programs end with the emitted array of those arguments as their result. -/
theorem algebraic : Cert.algebraic_KernelIdeal_ReferenceIdeal := by
  intro m ρ m' ρ' _ hagree
  refine ⟨fun c => Cert.Lif.emitted
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
